-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x64 .f32) (main_arg3 : FVec F S64 .f32) (main_arg4 : FVec F S64x2 .f32) (main_arg5 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩
abbrev S1x64 : Shape := ⟨2, ![1, 64]⟩
abbrev S50000x2 : Shape := ⟨2, ![50000, 2]⟩
abbrev S5000x2 : Shape := ⟨2, ![5000, 2]⟩
abbrev S1650000x2 : Shape := ⟨2, ![1650000, 2]⟩
abbrev S1x2 : Shape := ⟨2, ![1, 2]⟩

abbrev nBuf : Space → Nat
  | .hbm => 77
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S1650000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S50000x64, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000x64, .f32⟩
  | .hbm, ⟨49, _⟩ => ⟨S1650000x1, .f32⟩
  | .hbm, ⟨50, _⟩ => ⟨S1650000x64, .f32⟩
  | .hbm, ⟨51, _⟩ => ⟨S1650000x64, .f32⟩
  | .hbm, ⟨52, _⟩ => ⟨S_, .f32⟩
  | .hbm, ⟨53, _⟩ => ⟨S50000x64, .f32⟩
  | .hbm, ⟨54, _⟩ => ⟨S1650000x1, .i32⟩
  | .hbm, ⟨55, _⟩ => ⟨S50000x64, .f32⟩
  | .hbm, ⟨56, _⟩ => ⟨S1x64, .f32⟩
  | .hbm, ⟨57, _⟩ => ⟨S50000x2, .f32⟩
  | .hbm, ⟨58, _⟩ => ⟨S_, .i32⟩
  | .hbm, ⟨59, _⟩ => ⟨S1650000, .i32⟩
  | .hbm, ⟨60, _⟩ => ⟨S1650000, .i1⟩
  | .hbm, ⟨61, _⟩ => ⟨S_, .i32⟩
  | .hbm, ⟨62, _⟩ => ⟨S1650000, .i32⟩
  | .hbm, ⟨63, _⟩ => ⟨S1650000, .i32⟩
  | .hbm, ⟨64, _⟩ => ⟨S1650000, .i32⟩
  | .hbm, ⟨65, _⟩ => ⟨S1650000x1, .i32⟩
  | .hbm, ⟨66, _⟩ => ⟨S1650000x2, .f32⟩
  | .hbm, ⟨67, _⟩ => ⟨S1650000x1, .f32⟩
  | .hbm, ⟨68, _⟩ => ⟨S1650000x2, .f32⟩
  | .hbm, ⟨69, _⟩ => ⟨S1650000x2, .f32⟩
  | .hbm, ⟨70, _⟩ => ⟨S_, .f32⟩
  | .hbm, ⟨71, _⟩ => ⟨S50000x2, .f32⟩
  | .hbm, ⟨72, _⟩ => ⟨S1650000x1, .i32⟩
  | .hbm, ⟨73, _⟩ => ⟨S50000x2, .f32⟩
  | .hbm, ⟨74, _⟩ => ⟨S1x2, .f32⟩
  | .hbm, ⟨75, _⟩ => ⟨S50000x2, .f32⟩
  | .hbm, ⟨76, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x2, .f32⟩
  | .local _ .vmem, ⟨9, _⟩ => ⟨S5000x2, .f32⟩
  | .local _ .vmem, ⟨10, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x2_S5000x2_1_0_0_1_n_n_wf : DotDims.WF S5000x64 S64x2 S5000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S50000x2.size a
  hwx1_3 : ∀ i : grid1.Coords, EltTy.bits .f32 = 32 ∨ (Rect.block (s := S50000x2) S5000x2.size (cc1_transform_3 i) (hinb1_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x2 : Shape := ⟨2, ![50000, 2]⟩
abbrev S1650000x2 : Shape := ⟨2, ![1650000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S1650000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S50000x64, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000x64, .f32⟩
  | .hbm, ⟨49, _⟩ => ⟨S1650000x1, .f32⟩
  | .hbm, ⟨50, _⟩ => ⟨S1650000x64, .f32⟩
  | .hbm, ⟨51, _⟩ => ⟨S1650000x64, .f32⟩
  | .hbm, ⟨52, _⟩ => ⟨S_, .f32⟩
  | .hbm, ⟨53, _⟩ => ⟨S50000x64, .f32⟩
  | .hbm, ⟨54, _⟩ => ⟨S1650000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S1650000, .f32⟩
  | .hbm, ⟨64, _⟩ => ⟨S_, .f32⟩
  | .hbm, ⟨65, _⟩ => ⟨S50000, .f32⟩
  | .hbm, ⟨66, _⟩ => ⟨S1650000x1, .i32⟩
  | .hbm, ⟨67, _⟩ => ⟨S50000, .f32⟩
  | .hbm, ⟨68, _⟩ => ⟨S50000, .f32⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000, .f32⟩
  | .hbm, ⟨87, _⟩ => ⟨S1650000, .f32⟩
  | .hbm, ⟨88, _⟩ => ⟨S50000x2, .f32⟩
  | .hbm, ⟨89, _⟩ => ⟨S_, .i32⟩
  | .hbm, ⟨90, _⟩ => ⟨S1650000, .i32⟩
  | .hbm, ⟨91, _⟩ => ⟨S1650000, .i1⟩
  | .hbm, ⟨92, _⟩ => ⟨S_, .i32⟩
  | .hbm, ⟨93, _⟩ => ⟨S1650000, .i32⟩
  | .hbm, ⟨94, _⟩ => ⟨S1650000, .i32⟩
  | .hbm, ⟨95, _⟩ => ⟨S1650000, .i32⟩
  | .hbm, ⟨96, _⟩ => ⟨S1650000x1, .i32⟩
  | .hbm, ⟨97, _⟩ => ⟨S1650000x2, .f32⟩
  | .hbm, ⟨98, _⟩ => ⟨S1650000x1, .f32⟩
  | .hbm, ⟨99, _⟩ => ⟨S1650000x2, .f32⟩
  | .hbm, ⟨100, _⟩ => ⟨S1650000x2, .f32⟩
  | .hbm, ⟨101, _⟩ => ⟨S_, .f32⟩
  | .hbm, ⟨102, _⟩ => ⟨S50000x2, .f32⟩
  | .hbm, ⟨103, _⟩ => ⟨S1650000x1, .i32⟩
  | .hbm, ⟨104, _⟩ => ⟨S50000x2, .f32⟩
  | .hbm, ⟨105, _⟩ => ⟨S1x2, .f32⟩
  | .hbm, ⟨106, _⟩ => ⟨S50000x2, .f32⟩
  | .hbm, ⟨107, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x2_S50000x2_1_0_0_1_n_n_wf : DotDims.WF S50000x64 S64x2 S50000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

class Facts : Prop extends Facts₀ where

variable [Facts]
-- ==== Proof.KernelRun.lean ====
/-
  The idealized kernel program's run, with the result array named.

  The program is five segments: the host operations that build the edge lists and the normalisation, the first
  region (the feature projection), the host operations that gather, scale and aggregate the projected rows, the
  second region (bias, clamp and the second projection), and the host operations that gather, scale and aggregate
  again and add the output bias. After the last segment the result array holds the composition of all five read
  from the launch memory, which the lemmas after this one open one segment at a time.
-/
import proofs.«101732_j5342939316786_1_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v58 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Gcn

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Stages.lean ====
/-
  The two dense stages of the network as functions of whole arrays, and the host's spelling of each.

  `proj x w` is the product of the 50000×128 feature matrix with the 128×64 first weight matrix.
  `hidden o b w` takes the 50000×64 aggregated features, adds the bias (given as a one-row matrix) to every row,
  clamps below at zero and multiplies by the 64×2 second weight matrix.

  On the host the first is one dot product contracting the feature coordinate; the second is the bias vector laid
  out as a row and repeated down the rows, an addition, a maximum with the zero array, and one dot product. Read at
  an entry both are the same finite sums: a sum over the contracted coordinate of products, with no regrouping, so
  nothing about finiteness is needed.
-/
import proofs.«101732_j5342939316786_1_alg».proof.KernelIdeal
import proofs.«101732_j5342939316786_1_alg».proof.Proof.LibDense
import Idealize.ShloMosaic.Lib.ValueIdx
import Idealize.ShloMosaic.Lib.ValueLayout

noncomputable section

namespace Cert.Gcn

open Idealize.ShloMosaic Idealize.ShloMosaic.ValueIdx
open Cert.KernelIdeal

/-- The product of the feature matrix with the first weight matrix, entry by entry. -/
def proj (x : FVec Ideal S50000x128 .f32) (w : FVec Ideal S128x64 .f32) : FVec Ideal S50000x64 .f32 :=
  fun i => ∑ k : Fin 128, x (ix2 (i 0) k) * w (ix2 k (i 1))

/-- The hidden layer's projection: the bias row added, the clamp below at zero, the product with the second weight
    matrix, entry by entry. -/
def hidden (o : FVec Ideal S50000x64 .f32) (b : FVec Ideal S1x64 .f32) (w : FVec Ideal S64x2 .f32) : FVec Ideal S50000x2 .f32 :=
  fun i => ∑ k : Fin 64, max (o (ix2 (i 0) k) + b (ix2 (0 : Fin 1) k)) (Ideal.ofBits .f32 0x00000000#32) * w (ix2 k (i 1))

/-- The host's dot product of the features with the first weights is `proj`. -/
theorem hostProj_eq (wf : DotDims.WF S50000x128 S128x64 S50000x64 [1] [0] [0] [1] [] [])
    (x : FVec Ideal S50000x128 .f32) (w : FVec Ideal S128x64 .f32) :
    Host.dotGeneral (F := Ideal) (⟨[1], [0], [0], [1], [], [], wf⟩ : DotDims S50000x128 S128x64 S50000x64) none x w = proj x w := by
  funext i
  obtain ⟨r, q, rfl⟩ : ∃ (r : Fin 50000) (q : Fin 64), i = ix2 r q := ⟨i 0, i 1, eq_ix2 i⟩
  rw [Cert.Dense.hostDot_plain_apply]
  rfl

/-- The host's bias addition, clamp and dot product with the second weights is `hidden` of the bias laid out as a
    row. -/
theorem hostHidden_eq (wf : DotDims.WF S50000x64 S64x2 S50000x2 [1] [0] [0] [1] [] [])
    (h1 : S64.BroadcastsInDim S1x64 (![1] : Fin 1 → Fin S1x64.rank))
    (h2 : S1x64.BroadcastsInDim S50000x64 (![0, 1] : Fin 2 → Fin S50000x64.rank))
    (h3 : S_.BroadcastsInDim S50000x64 (![] : Fin 0 → Fin S50000x64.rank))
    (h4 : S64.ShapeCasts S1x64)
    (o : FVec Ideal S50000x64 .f32) (b : FVec Ideal S64 .f32) (w : FVec Ideal S64x2 .f32) :
    Host.dotGeneral (F := Ideal) (⟨[1], [0], [0], [1], [], [], wf⟩ : DotDims S50000x64 S64x2 S50000x2) none
        (maximumf (addf o (broadcastInDim S50000x64 ![0, 1] h2 (broadcastInDim S1x64 ![1] h1 b)))
          (broadcastInDim S50000x64 ![] h3 (constant (F := Ideal) S_ .f32 0x00000000#32))) w
      = hidden o (shapeCast S1x64 b h4) w := by
  funext i
  obtain ⟨r, q, rfl⟩ : ∃ (r : Fin 50000) (q : Fin 2), i = ix2 r q := ⟨i 0, i 1, eq_ix2 i⟩
  rw [Cert.Dense.hostDot_plain_apply]
  unfold hidden
  refine Finset.sum_congr rfl fun k _ => ?_
  rw [maximumf_apply, addf_apply, Cert.Dense.bcastRows_apply, Cert.Dense.bcastRow_apply, Cert.Dense.bcastScalar_apply,
    constant_apply, shapeCast_a_1a_apply]

end Cert.Gcn

end
-- ==== Proof.HostChain.lean ====
/-
  The host operations both programs share, as functions of the arrays they read.

  From the edge array (two rows of 1600000 node numbers) both programs build the source and destination lists with
  one self loop per node appended; the in-degree of every node, counted by adding a one per edge at its destination;
  its inverse square root; and per edge the product of the two end points' inverse square roots. A layer's aggregation gathers
  the rows of a node matrix at the edges' sources (a negative node number first wrapped by the node count), scales row e
  by the edge's coefficient and adds it into the row of the edge's destination. The last layer also adds the output
  bias to every row. Each function below is spelt exactly as the programs spell these operations, so that a
  program's composed term is one of them applied to its operands; none is ever opened.
-/
import proofs.«101732_j5342939316786_1_alg».proof.Proof.Gen.KernelIdeal

noncomputable section

namespace Cert.Gcn

open Idealize.ShloMosaic
open Cert.KernelIdeal Cert.KernelIdeal.Facts₀

variable {F : FTy → Type} [FloatOps F]

/-- The edges' source nodes, the self loops appended. -/
def srcOf (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The edges' destination nodes, the self loops appended. -/
def dstOf (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- A list of node numbers as a column of gather indices, a negative number wrapped by the node count. -/
def wrapIdx (s : (⟨S1650000, .i32⟩ : BufTy).Contents (Elt F)) : (⟨S1650000x1, .i32⟩ : BufTy).Contents (Elt F) :=
  broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s)

/-- The inverse square root of every node's in-degree (the number of edges that end at it). -/
def dinvOf (dst : (⟨S1650000, .i32⟩ : BufTy).Contents (Elt F)) : (⟨S50000, .f32⟩ : BufTy).Contents (Elt F) :=
  Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 dst) (broadcastInDim S1650000 ![] bcast_S_S1650000 (constant S_ .f32 0x3F800000#32)))

/-- Per edge, the product of its two end points' inverse square root degrees. -/
def normOf (src dst : (⟨S1650000, .i32⟩ : BufTy).Contents (Elt F)) : (⟨S1650000, .f32⟩ : BufTy).Contents (Elt F) :=
  mulf (Host.gather gather_S50000_S1650000x1_S1650000_n_0_n_n_0_1_1 (dinvOf dst) (wrapIdx src)) (Host.gather gather_S50000_S1650000x1_S1650000_n_0_n_n_0_1_1 (dinvOf dst) (wrapIdx dst))

/-- The first layer's aggregation: the 64-wide rows gathered at the sources, scaled per edge, added at the
    destinations. -/
def aggregate64 (src dst : (⟨S1650000, .i32⟩ : BufTy).Contents (Elt F)) (nrm : (⟨S1650000, .f32⟩ : BufTy).Contents (Elt F))
    (h : (⟨S50000x64, .f32⟩ : BufTy).Contents (Elt F)) : (⟨S50000x64, .f32⟩ : BufTy).Contents (Elt F) :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 dst) (mulf (Host.gather gather_S50000x64_S1650000x1_S1650000x64_1_0_n_n_0_1_164 h (wrapIdx src)) (broadcastInDim S1650000x64 ![0, 1] bcast_S1650000x1_S1650000x64_0_1 (broadcastInDim S1650000x1 ![0] bcast_S1650000_S1650000x1_0 nrm)))

/-- The second layer's aggregation, the output bias added to every row. -/
def aggregate2 (src dst : (⟨S1650000, .i32⟩ : BufTy).Contents (Elt F)) (nrm : (⟨S1650000, .f32⟩ : BufTy).Contents (Elt F))
    (h : (⟨S50000x2, .f32⟩ : BufTy).Contents (Elt F)) (b : (⟨S2, .f32⟩ : BufTy).Contents (Elt F)) :
    (⟨S50000x2, .f32⟩ : BufTy).Contents (Elt F) :=
  addf (Host.scatterAdd scatter_S50000x2_S1650000x1_S1650000x2_1_0_0_1 (broadcastInDim S50000x2 ![] bcast_S_S50000x2 (constant S_ .f32 0x00000000#32)) (broadcastInDim S1650000x1 ![0] bcast_S1650000_S1650000x1_0 dst) (mulf (Host.gather gather_S50000x2_S1650000x1_S1650000x2_1_0_n_n_0_1_12 h (wrapIdx src)) (broadcastInDim S1650000x2 ![0, 1] bcast_S1650000x1_S1650000x2_0_1 (broadcastInDim S1650000x1 ![0] bcast_S1650000_S1650000x1_0 nrm)))) (broadcastInDim S50000x2 ![0, 1] bcast_S1x2_S50000x2_0_1 (broadcastInDim S1x2 ![1] bcast_S2_S1x2_1 b))

end Cert.Gcn

end
-- ==== Proof.Model.lean ====
/-
  The two-layer graph convolution both programs compute, as one function of the six argument arrays.

  With src, dst the edge lists (self loops appended) and nrm the per-edge coefficients
  deg(src)^(-1/2) · deg(dst)^(-1/2):

    layer 1:  a  = aggregate64 src dst nrm (x · w1)
    layer 2:  out = aggregate2 src dst nrm (max(a + b1, 0) · w2) b2

  The shared host operations are the functions of the host-chain module; the two dense stages are `proj` and `hidden`.
-/
import proofs.«101732_j5342939316786_1_alg».proof.Proof.Stages
import proofs.«101732_j5342939316786_1_alg».proof.Proof.HostChain

noncomputable section

namespace Cert.Gcn

open Idealize.ShloMosaic
open Cert.KernelIdeal Cert.KernelIdeal.Facts₀

/-- The network's output from the features, the edge array, and the two layers' weights and biases. -/
def gcn (x : (⟨S50000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x2, .f32⟩ : BufTy).Contents (Elt Ideal)) (b2 : (⟨S2, .f32⟩ : BufTy).Contents (Elt Ideal)) :
    (⟨S50000x2, .f32⟩ : BufTy).Contents (Elt Ideal) :=
  aggregate2 (F := Ideal) (srcOf (F := Ideal) e) (dstOf (F := Ideal) e) (normOf (F := Ideal) (srcOf (F := Ideal) e) (dstOf (F := Ideal) e))
    (hidden
      (aggregate64 (F := Ideal) (srcOf (F := Ideal) e) (dstOf (F := Ideal) e)
        (normOf (F := Ideal) (srcOf (F := Ideal) e) (dstOf (F := Ideal) e)) (proj x w1))
      (shapeCast S1x64 b1 shapeCasts_S64_S1x64) w2)
    b2

end Cert.Gcn

end
-- ==== Proof.BodyValues.lean ====
/-
  What each of the two kernel bodies stores, read at one entry of its block, at the ideal values.

  The first body multiplies a block of 5000 rows of the node features by the whole first weight matrix; the change
  of storage format in front of the product is the identity on extended reals, so entry (p, q) of what it stores is
  the sum over the 128 feature coordinates k of x(p, k) · w(k, q).

  The second body adds the bias row to a block of 5000 rows of aggregated features, clamps below at zero and
  multiplies by the whole second weight matrix: entry (p, q) is the sum over the 64 hidden coordinates k of
  max(o(p, k) + b(0, k), 0) · w(k, q), the zero being the literal's value.
-/
import proofs.«101732_j5342939316786_1_alg».proof.Proof.Gen.KernelIdeal.Skeleton
import proofs.«101732_j5342939316786_1_alg».proof.Proof.LibDense
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx
open Cert.KernelIdeal Cert.KernelIdeal.Gen

/-- The first body's stored block at entry (p, q): row p of the feature block against column q of the weights. -/
theorem projBlock_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  unfold dot_S5000x128_S128x64_S5000x64_1_0_0_1_n_n
  rw [Cert.Dense.matmul_plain_apply]
  rfl

/-- The second body's stored block at entry (p, q): row p of the clamped, biased block against column q of the
    weights. -/
theorem hiddenBlock_apply (o : Vec Ideal S5000x64 .f32) (b : Vec Ideal S1x64 .f32) (w : Vec Ideal S64x2 .f32)
    (p : Fin 5000) (q : Fin 2) :
    k1_pay1 (F := Ideal) o b w (ix2 p q)
      = ∑ k : Fin 64, max (o (ix2 p k) + b (ix2 (0 : Fin 1) k)) (Ideal.ofBits .f32 0x00000000#32) * w (ix2 k q) := by
  unfold k1_pay1
  unfold dot_S5000x64_S64x2_S5000x2_1_0_0_1_n_n
  rw [Cert.Dense.matmul_plain_apply]
  refine Finset.sum_congr rfl fun k _ => ?_
  rw [truncf_apply, truncf_apply, maximumf_apply, addf_apply, shapeCast_self, shapeCast_self,
    broadcastTo_1b_ab_apply, broadcast_apply]
  rfl

end Cert.Gcn

end
-- ==== Proof.Region0.lean ====
/-
  The first region's output array after all ten grid points.

  Grid point t fetches rows 5000·t … 5000·t + 4999 of the feature matrix and the whole first weight matrix, and
  writes back rows 5000·t … 5000·t + 4999 of the output. What it writes is the block of one whole-array function,
  the matrix product `proj x w` at (r, q) = Σ_k x(r, k) · w(k, q); the ten row blocks tile the 50000 rows, so the
  array ends holding `proj` of the two arrays as the region found them.
-/
import proofs.«101732_j5342939316786_1_alg».proof.Proof.Gen.KernelIdeal.Frame
import proofs.«101732_j5342939316786_1_alg».proof.Proof.BodyValues
import proofs.«101732_j5342939316786_1_alg».proof.Proof.Stages

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The three windows' block indices at grid point t: the row block t of the features and of the output, the one
    block of the weights. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the arrays the region found. -/
theorem flushed0 (c : Dev nD) (t : Fin cfg0.N) :
    (dat0 V c).flushed 2 t
      = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x64) offsets_zero]
  obtain ⟨e0, e1, e2, e3, e4, e5⟩ := blockIdx0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = proj (V c main_arg0) (V c main_arg2) (((cfg0.win 2).blk t).view.emb (ix2 p q))
  refine (projBlock_apply (iblk0 V c 0 t) (iblk0 V c 1 t) p q).trans ?_
  unfold proj
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have hx : iblk0 V c 0 t (ix2 p k) = V c main_arg0 (ix2 ((((cfg0.win 2).blk t).view.emb (ix2 p q)) 0) k) := by
    show V c main_arg0 (((cfg0.win 0).blk t).view.emb (ix2 p k)) = _
    rw [h0]; rfl
  have hw : iblk0 V c 1 t (ix2 k q) = V c main_arg2 (ix2 k ((((cfg0.win 2).blk t).view.emb (ix2 p q)) 1)) := by
    show V c main_arg2 (((cfg0.win 1).blk t).view.emb (ix2 k q)) = _
    rw [h1]; rfl
  rw [hx, hw]

/-- An entry of the output array lies in grid point t's block when its row is one of the block's 5000 rows. -/
theorem mem_block0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every entry of the output array is in the block of the grid point numbered by its row divided by 5000. -/
theorem covered0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e0, e1, e2, e3, e4, e5⟩ := blockIdx0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The first region's output array ends at the product of the feature and weight arrays it found. -/
theorem final0 (c : Dev nD) : (dat0 V c).arrAt 2 cfg0.N = proj (V c main_arg0) (V c main_arg2) :=
  (dat0 V c).arrAt_eq_of_cover 2 (proj (V c main_arg0) (V c main_arg2)) (fun t _ => flushed0 V c t) covered0

end Cert.Gcn

end
-- ==== Proof.Region1.lean ====
/-
  The second region's output array after all ten grid points.

  Grid point t fetches rows 5000·t … 5000·t + 4999 of the aggregated features, the one-row bias array and the whole
  second weight matrix, and writes back rows 5000·t … 5000·t + 4999 of the output. What it writes is the block of
  one whole-array function, `hidden o b w` at (r, q) = Σ_k max(o(r, k) + b(0, k), 0) · w(k, q); the ten row blocks
  tile the 50000 rows, so the array ends holding `hidden` of the three arrays as the region found them.
-/
import proofs.«101732_j5342939316786_1_alg».proof.Proof.Gen.KernelIdeal.Frame
import proofs.«101732_j5342939316786_1_alg».proof.Proof.BodyValues
import proofs.«101732_j5342939316786_1_alg».proof.Proof.Stages

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem offsets_zero' : (![0, 0] : Fin 2 → Nat) = fun _ => 0 := funext fun a => by fin_cases a <;> rfl

/-- The four windows' block indices at grid point t: the row block t of the aggregated features and of the output,
    the one block of the bias row and of the weights. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of the hidden projection of the arrays the region found. -/
theorem flushed1 (c : Dev nD) (t : Fin cfg1.N) :
    (dat1 V c).flushed 3 t
      = ((cfg1.win 3).blk t).view.read (Elt Ideal) (hidden (V c main_v40) (V c main_v41) (V c main_arg4)) := by
  show (cfg1.win 3).cut (grid1.coords t) ((dat1 V c).after 3 t) = _
  rw [after1_3]
  unfold out1_3
  rw [View.canon_unit_zero offsets_zero']
  simp only [View.ld_unit_zero (S := S5000x64) offsets_zero', View.ld_unit_zero (S := S1x64) offsets_zero',
    View.ld_unit_zero (S := S64x2) offsets_zero']
  obtain ⟨e0, e1, e2, e3, e4, e5, e6, e7⟩ := blockIdx1 t
  funext j
  obtain ⟨p, q, rfl⟩ : ∃ (p : Fin 5000) (q : Fin 2), j = ix2 p q := ⟨j 0, j 1, eq_ix2 j⟩
  show k1_pay1 (F := Ideal) (iblk1 V c 0 t) (iblk1 V c 1 t) (iblk1 V c 2 t) (ix2 p q)
    = hidden (V c main_v40) (V c main_v41) (V c main_arg4) (((cfg1.win 3).blk t).view.emb (ix2 p q))
  refine (hiddenBlock_apply (iblk1 V c 0 t) (iblk1 V c 1 t) (iblk1 V c 2 t) p q).trans ?_
  unfold hidden
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 64 + 1 * k.val = k.val; omega
    | ⟨1, _⟩ => show win1_2.index t (1 : Fin 2) * 2 + 1 * q.val = win1_3.index t (1 : Fin 2) * 2 + 1 * q.val; omega
  have ho : iblk1 V c 0 t (ix2 p k) = V c main_v40 (ix2 ((((cfg1.win 3).blk t).view.emb (ix2 p q)) 0) k) := by
    show V c main_v40 (((cfg1.win 0).blk t).view.emb (ix2 p k)) = _
    rw [h0]; rfl
  have hb : iblk1 V c 1 t (ix2 (0 : Fin 1) k) = V c main_v41 (ix2 (0 : Fin 1) k) := by
    show V c main_v41 (((cfg1.win 1).blk t).view.emb (ix2 (0 : Fin 1) k)) = _
    rw [h1]
  have hw : iblk1 V c 2 t (ix2 k q) = V c main_arg4 (ix2 k ((((cfg1.win 3).blk t).view.emb (ix2 p q)) 1)) := by
    show V c main_arg4 (((cfg1.win 2).blk t).view.emb (ix2 k q)) = _
    rw [h2]; rfl
  rw [ho, hb, hw]

/-- An entry of the output array lies in grid point t's block when its row is one of the block's 5000 rows. -/
theorem mem_block1 (t : Fin cfg1.N) (i : S50000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v42).slice (win1_3.rect t)).set ↔ _
  rw [View.set_slice_whole, Rect.mem_set_unit]
  exact Iff.rfl

/-- Every entry of the output array is in the block of the grid point numbered by its row divided by 5000. -/
theorem covered1 (i : S50000x2.Idx) :
    ∃ t : Fin cfg1.N, (cfg1.win 3).flush t = true ∧ i ∈ ((cfg1.win 3).blk t).view.set := by
  have hi0 : (i 0).val < 50000 := (i 0).isLt
  have hi1 : (i 1).val < 2 := (i 1).isLt
  have hN : cfg1.N = 10 := N_1
  let t : Fin cfg1.N := ⟨(i 0).val / 5000, by rw [hN]; omega⟩
  obtain ⟨e0, e1, e2, e3, e4, e5, e6, e7⟩ := blockIdx1 t
  have ht : t.val = (i 0).val / 5000 := rfl
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 2 ≤ (i 1).val ∧ (i 1).val < win1_3.index t (1 : Fin 2) * 2 + 2; omega

/-- The second region's output array ends at the hidden projection of the three arrays it found. -/
theorem final1 (c : Dev nD) :
    (dat1 V c).arrAt 3 cfg1.N = hidden (V c main_v40) (V c main_v41) (V c main_arg4) :=
  (dat1 V c).arrAt_eq_of_cover 3 (hidden (V c main_v40) (V c main_v41) (V c main_arg4)) (fun t _ => flushed1 V c t) covered1

end Cert.Gcn

end
-- ==== Proof.KernelRead.lean ====
/-
  The kernel program's result array, read one segment at a time.

  Each stretch of host operations is read over an arbitrary valuation of the buffers it starts from: the last
  stretch leaves the second layer's aggregation (with the output bias) of the second region's output; the middle
  stretch leaves the first layer's aggregation of the first region's output and the bias laid out as one row, and
  keeps the edge lists and the coefficients; the first stretch builds the edge lists and the coefficients from the edge
  array. Put together with what the two regions leave in their output arrays, the result array is

    aggregate2 src dst nrm (hidden (aggregate64 src dst nrm (proj x w1)) (b1 as a row) w2) b2

  of the launch memory's argument arrays.
-/
import proofs.«101732_j5342939316786_1_alg».proof.Proof.Gen.KernelIdeal.Frame
import proofs.«101732_j5342939316786_1_alg».proof.Proof.Model
import proofs.«101732_j5342939316786_1_alg».proof.Proof.Region0
import proofs.«101732_j5342939316786_1_alg».proof.Proof.Region1
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen

section Stretches

variable (X : Valuation τ sig (Elt Ideal))

/-! ## The last stretch -/

theorem stretch2_result : StableHlo.after (hostOps2 (F := Ideal)) X (Proc.devRef .tc main_v58)
    = aggregate2 (X (Proc.devRef .tc main_v3)) (X (Proc.devRef .tc main_v6)) (X (Proc.devRef .tc main_v26)) (X (Proc.devRef .tc main_v42)) (X (Proc.devRef .tc main_arg5)) := by
  after_results_simp
  rfl

/-! ## The middle stretch -/

theorem stretch1_aggregate : StableHlo.after (hostOps1 (F := Ideal)) X (Proc.devRef .tc main_v40)
    = aggregate64 (X (Proc.devRef .tc main_v3)) (X (Proc.devRef .tc main_v6)) (X (Proc.devRef .tc main_v26)) (X (Proc.devRef .tc main_v27)) := by
  after_results_simp
  rfl

theorem stretch1_biasRow : StableHlo.after (hostOps1 (F := Ideal)) X (Proc.devRef .tc main_v41)
    = shapeCast S1x64 (X (Proc.devRef .tc main_arg3)) shapeCasts_S64_S1x64 := by
  after_results_simp
  rfl

theorem stretch1_keeps_v3 : StableHlo.after (hostOps1 (F := Ideal)) X (Proc.devRef .tc main_v3) = X (Proc.devRef .tc main_v3) := by
  after_results_simp

theorem stretch1_keeps_v6 : StableHlo.after (hostOps1 (F := Ideal)) X (Proc.devRef .tc main_v6) = X (Proc.devRef .tc main_v6) := by
  after_results_simp

theorem stretch1_keeps_v26 : StableHlo.after (hostOps1 (F := Ideal)) X (Proc.devRef .tc main_v26) = X (Proc.devRef .tc main_v26) := by
  after_results_simp

theorem stretch1_keeps_arg4 : StableHlo.after (hostOps1 (F := Ideal)) X (Proc.devRef .tc main_arg4) = X (Proc.devRef .tc main_arg4) := by
  after_results_simp

theorem stretch1_keeps_arg5 : StableHlo.after (hostOps1 (F := Ideal)) X (Proc.devRef .tc main_arg5) = X (Proc.devRef .tc main_arg5) := by
  after_results_simp

/-! ## The first stretch -/

theorem stretch0_src : StableHlo.after (hostOps0 (F := Ideal)) X (Proc.devRef .tc main_v3) = srcOf (X (Proc.devRef .tc main_arg1)) := by
  after_results_simp
  rfl

theorem stretch0_dst : StableHlo.after (hostOps0 (F := Ideal)) X (Proc.devRef .tc main_v6) = dstOf (X (Proc.devRef .tc main_arg1)) := by
  after_results_simp
  rfl

theorem stretch0_norm : StableHlo.after (hostOps0 (F := Ideal)) X (Proc.devRef .tc main_v26)
    = normOf (srcOf (X (Proc.devRef .tc main_arg1))) (dstOf (X (Proc.devRef .tc main_arg1))) := by
  after_results_simp
  rfl

theorem stretch0_keeps_arg0 : StableHlo.after (hostOps0 (F := Ideal)) X (Proc.devRef .tc main_arg0) = X (Proc.devRef .tc main_arg0) := by
  after_results_simp

theorem stretch0_keeps_arg2 : StableHlo.after (hostOps0 (F := Ideal)) X (Proc.devRef .tc main_arg2) = X (Proc.devRef .tc main_arg2) := by
  after_results_simp

theorem stretch0_keeps_arg3 : StableHlo.after (hostOps0 (F := Ideal)) X (Proc.devRef .tc main_arg3) = X (Proc.devRef .tc main_arg3) := by
  after_results_simp

theorem stretch0_keeps_arg4 : StableHlo.after (hostOps0 (F := Ideal)) X (Proc.devRef .tc main_arg4) = X (Proc.devRef .tc main_arg4) := by
  after_results_simp

theorem stretch0_keeps_arg5 : StableHlo.after (hostOps0 (F := Ideal)) X (Proc.devRef .tc main_arg5) = X (Proc.devRef .tc main_arg5) := by
  after_results_simp

end Stretches

/-! ## The segments put together -/

variable (m : (ℓ : Loc nD τ sig) → Buf (Elt Ideal) ℓ) (ρ : Dev nD → PrngReg)

/-- The buffers at the first region's entry that the first stretch writes or keeps. -/
theorem entry0 (c : Dev nD) :
    W1 m ρ c (Proc.devRef .tc main_v3) = srcOf (m ((c.tc : Thread nD τ).loc main_arg1))
    ∧ W1 m ρ c (Proc.devRef .tc main_v6) = dstOf (m ((c.tc : Thread nD τ).loc main_arg1))
    ∧ W1 m ρ c (Proc.devRef .tc main_v26) = normOf (srcOf (m ((c.tc : Thread nD τ).loc main_arg1))) (dstOf (m ((c.tc : Thread nD τ).loc main_arg1)))
    ∧ W1 m ρ c (Proc.devRef .tc main_arg0) = m ((c.tc : Thread nD τ).loc main_arg0)
    ∧ W1 m ρ c (Proc.devRef .tc main_arg2) = m ((c.tc : Thread nD τ).loc main_arg2)
    ∧ W1 m ρ c (Proc.devRef .tc main_arg3) = m ((c.tc : Thread nD τ).loc main_arg3)
    ∧ W1 m ρ c (Proc.devRef .tc main_arg4) = m ((c.tc : Thread nD τ).loc main_arg4)
    ∧ W1 m ρ c (Proc.devRef .tc main_arg5) = m ((c.tc : Thread nD τ).loc main_arg5) :=
  ⟨stretch0_src _, stretch0_dst _, stretch0_norm _, stretch0_keeps_arg0 _, stretch0_keeps_arg2 _, stretch0_keeps_arg3 _,
    stretch0_keeps_arg4 _, stretch0_keeps_arg5 _⟩

/-- The buffers at the first region's exit: its output array at the product, the rest as entered. -/
theorem exit0 (c : Dev nD) :
    W2 m ρ c (Proc.devRef .tc main_v27) = proj (m ((c.tc : Thread nD τ).loc main_arg0)) (m ((c.tc : Thread nD τ).loc main_arg2))
    ∧ W2 m ρ c (Proc.devRef .tc main_v3) = srcOf (m ((c.tc : Thread nD τ).loc main_arg1))
    ∧ W2 m ρ c (Proc.devRef .tc main_v6) = dstOf (m ((c.tc : Thread nD τ).loc main_arg1))
    ∧ W2 m ρ c (Proc.devRef .tc main_v26) = normOf (srcOf (m ((c.tc : Thread nD τ).loc main_arg1))) (dstOf (m ((c.tc : Thread nD τ).loc main_arg1)))
    ∧ W2 m ρ c (Proc.devRef .tc main_arg3) = m ((c.tc : Thread nD τ).loc main_arg3)
    ∧ W2 m ρ c (Proc.devRef .tc main_arg4) = m ((c.tc : Thread nD τ).loc main_arg4)
    ∧ W2 m ρ c (Proc.devRef .tc main_arg5) = m ((c.tc : Thread nD τ).loc main_arg5) := by
  obtain ⟨h3, h6, h26, ha0, ha2, ha3, ha4, ha5⟩ := entry0 m ρ c
  refine ⟨?_, (W2_of_ne m ρ c main_v3 (by decide)).trans h3, (W2_of_ne m ρ c main_v6 (by decide)).trans h6,
    (W2_of_ne m ρ c main_v26 (by decide)).trans h26, (W2_of_ne m ρ c main_arg3 (by decide)).trans ha3,
    (W2_of_ne m ρ c main_arg4 (by decide)).trans ha4, (W2_of_ne m ρ c main_arg5 (by decide)).trans ha5⟩
  refine (W2_arr m ρ c 2).trans ?_
  have ha0' : V1 m ρ c main_arg0 = _ := ha0
  have ha2' : V1 m ρ c main_arg2 = _ := ha2
  rw [final0 (V1 m ρ) c, ha0', ha2']

/-- The buffers at the second region's entry. -/
theorem entry1 (c : Dev nD) :
    W3 m ρ c (Proc.devRef .tc main_v40)
      = aggregate64 (srcOf (m ((c.tc : Thread nD τ).loc main_arg1))) (dstOf (m ((c.tc : Thread nD τ).loc main_arg1)))
          (normOf (srcOf (m ((c.tc : Thread nD τ).loc main_arg1))) (dstOf (m ((c.tc : Thread nD τ).loc main_arg1))))
          (proj (m ((c.tc : Thread nD τ).loc main_arg0)) (m ((c.tc : Thread nD τ).loc main_arg2)))
    ∧ W3 m ρ c (Proc.devRef .tc main_v41) = shapeCast S1x64 (m ((c.tc : Thread nD τ).loc main_arg3)) shapeCasts_S64_S1x64
    ∧ W3 m ρ c (Proc.devRef .tc main_v3) = srcOf (m ((c.tc : Thread nD τ).loc main_arg1))
    ∧ W3 m ρ c (Proc.devRef .tc main_v6) = dstOf (m ((c.tc : Thread nD τ).loc main_arg1))
    ∧ W3 m ρ c (Proc.devRef .tc main_v26) = normOf (srcOf (m ((c.tc : Thread nD τ).loc main_arg1))) (dstOf (m ((c.tc : Thread nD τ).loc main_arg1)))
    ∧ W3 m ρ c (Proc.devRef .tc main_arg4) = m ((c.tc : Thread nD τ).loc main_arg4)
    ∧ W3 m ρ c (Proc.devRef .tc main_arg5) = m ((c.tc : Thread nD τ).loc main_arg5) := by
  obtain ⟨h27, h3, h6, h26, ha3, ha4, ha5⟩ := exit0 m ρ c
  refine ⟨(stretch1_aggregate _).trans ?_, (stretch1_biasRow _).trans ?_, (stretch1_keeps_v3 _).trans h3,
    (stretch1_keeps_v6 _).trans h6, (stretch1_keeps_v26 _).trans h26, (stretch1_keeps_arg4 _).trans ha4,
    (stretch1_keeps_arg5 _).trans ha5⟩
  · rw [h27, h3, h6, h26]
  · rw [ha3]

/-- The result array after the last stretch is `gcn` of the launch memory's argument arrays. -/
theorem result_eq (c : Dev nD) : W5 m ρ c (Proc.devRef .tc main_v58)
    = gcn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  obtain ⟨h40, h41, h3, h6, h26, ha4, ha5⟩ := entry1 m ρ c
  refine (stretch2_result _).trans ?_
  rw [W4_of_ne m ρ c main_v3 (by decide), W4_of_ne m ρ c main_v6 (by decide), W4_of_ne m ρ c main_v26 (by decide),
    W4_of_ne m ρ c main_arg5 (by decide), h3, h6, h26, ha5]
  rw [show W4 m ρ c (Proc.devRef .tc main_v42) = (dat1 (V3 m ρ) c).arrAt 3 cfg1.N from W4_arr m ρ c 3]
  rw [final1 (V3 m ρ) c]
  have h40' : V3 m ρ c main_v40 = _ := h40
  have h41' : V3 m ρ c main_v41 = _ := h41
  have ha4' : V3 m ρ c main_arg4 = _ := ha4
  rw [h40', h41', ha4']
  rfl

end Cert.Gcn

end
-- ==== Proof.RefRead.lean ====
/-
  The reference program's result as the same function of the argument arrays.

  The reference's composed term is the shared host chain around the host's spelling of the two dense stages: the
  first layer's product is one dot product, and the second layer's input is the first layer's aggregation with the
  bias repeated down the rows added, clamped below by the zero array, then one more dot product. (It builds the
  per-edge coefficients once per layer; the two copies are the same term.) The dense stages are rewritten to
  `proj` and `hidden`, and what is left is `gcn`.
-/
import proofs.«101732_j5342939316786_1_alg».proof.Proof.Gen.ReferenceIdeal.Run
import proofs.«101732_j5342939316786_1_alg».proof.Proof.Model

set_option maxRecDepth 16384

noncomputable section

namespace Cert.Gcn

open Idealize.ShloMosaic Idealize.ShloMosaic.TcCoe Idealize.SL.Sem
open Cert.ReferenceIdeal Cert.ReferenceIdeal.Facts₀

/-- The reference's result term is `gcn` of its argument arrays. -/
theorem ref_result_eq (m : (ℓ : Loc nD τ sig) → Buf (Elt Ideal) ℓ) (c : Dev nD) :
    Cert.ReferenceIdeal.Value.res_main_v81 (F := Ideal) m c
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v81
  show aggregate2 (F := Ideal) (srcOf (F := Ideal) (m ((c.tc : Thread nD τ).loc main_arg1))) (dstOf (F := Ideal) (m ((c.tc : Thread nD τ).loc main_arg1))) (normOf (F := Ideal) (srcOf (F := Ideal) (m ((c.tc : Thread nD τ).loc main_arg1))) (dstOf (F := Ideal) (m ((c.tc : Thread nD τ).loc main_arg1))))
      (Host.dotGeneral (F := Ideal) dot_S50000x64_S64x2_S50000x2_1_0_0_1_n_n none
        (maximumf (addf (aggregate64 (F := Ideal) (srcOf (F := Ideal) (m ((c.tc : Thread nD τ).loc main_arg1))) (dstOf (F := Ideal) (m ((c.tc : Thread nD τ).loc main_arg1))) (normOf (F := Ideal) (srcOf (F := Ideal) (m ((c.tc : Thread nD τ).loc main_arg1))) (dstOf (F := Ideal) (m ((c.tc : Thread nD τ).loc main_arg1))))
            (Host.dotGeneral (F := Ideal) dot_S50000x128_S128x64_S50000x64_1_0_0_1_n_n none (m ((c.tc : Thread nD τ).loc main_arg0)) (m ((c.tc : Thread nD τ).loc main_arg2))))
          (broadcastInDim S50000x64 ![0, 1] bcast_S1x64_S50000x64_0_1 (broadcastInDim S1x64 ![1] bcast_S64_S1x64_1 (m ((c.tc : Thread nD τ).loc main_arg3)))))
          (broadcastInDim S50000x64 ![] bcast_S_S50000x64 (constant (F := Ideal) S_ .f32 0x00000000#32))) (m ((c.tc : Thread nD τ).loc main_arg4)))
      (m ((c.tc : Thread nD τ).loc main_arg5)) = _
  unfold dot_S50000x64_S64x2_S50000x2_1_0_0_1_n_n dot_S50000x128_S128x64_S50000x64_1_0_0_1_n_n
  rw [hostProj_eq, hostHidden_eq]
  rfl

end Cert.Gcn

end
-- ==== Proof.lean ====
/-
  A two-layer graph convolution on 50000 nodes and 1600000 edges (one self loop per node appended), against its
  plain reference:

    out = Â · max(Â · (x · w1) + b1, 0) · w2 + b2,   Â = D^(-1/2) (A + I) D^(-1/2),

  where Â acts by gathering rows at the edges' sources, scaling row e by deg(src e)^(-1/2) · deg(dst e)^(-1/2), and
  adding it into the row of the edge's destination.

  The kernel program computes the two dense stages, x · w1 and max(a + b1, 0) · w2, in two grids of ten row
  blocks of 5000 nodes each (the operands stored in a narrower format in front of each product, which on extended
  reals is the identity), and everything else — the edge lists, the degrees, the coefficients, both aggregations, the
  output bias — with the same host operations as the reference. The reference computes the two dense stages as host dot
  products. So the two results are one function `gcn` of the six argument arrays: the kernel's blocks tile the rows
  and each entry of a block is the same finite sum over the contracted coordinate as the host's dot product gives, term
  for term, so no regrouping of sums and nothing about finiteness is used; the shared host operations are carried as
  functions that are never opened.

  The three frames are the generated ones (the reference's is its generated run with the result dropped), and no
  operation was rewritten in idealizing the kernel, so that conjunct is trivial.
-/
import proofs.«101732_j5342939316786_1_alg».proof.Defs
import proofs.«101732_j5342939316786_1_alg».proof.Proof.Gen.Kernel
import proofs.«101732_j5342939316786_1_alg».proof.Proof.Gen.Kernel.Skeleton
import proofs.«101732_j5342939316786_1_alg».proof.Proof.Gen.Kernel.Launch
import proofs.«101732_j5342939316786_1_alg».proof.Proof.Gen.Kernel.Points
import proofs.«101732_j5342939316786_1_alg».proof.Proof.Gen.Kernel.Frame
import proofs.«101732_j5342939316786_1_alg».proof.Proof.Gen.KernelIdeal
import proofs.«101732_j5342939316786_1_alg».proof.Proof.Gen.KernelIdeal.Skeleton
import proofs.«101732_j5342939316786_1_alg».proof.Proof.Gen.KernelIdeal.Launch
import proofs.«101732_j5342939316786_1_alg».proof.Proof.Gen.KernelIdeal.Points
import proofs.«101732_j5342939316786_1_alg».proof.Proof.Gen.KernelIdeal.Frame
import proofs.«101732_j5342939316786_1_alg».proof.Proof.Gen.ReferenceIdeal
import proofs.«101732_j5342939316786_1_alg».proof.Proof.Gen.ReferenceIdeal.Run
import proofs.«101732_j5342939316786_1_alg».proof.Proof.Gen.Pre_finite_inputs
import proofs.«101732_j5342939316786_1_alg».proof.Proof.KernelRun
import proofs.«101732_j5342939316786_1_alg».proof.Proof.KernelRead
import proofs.«101732_j5342939316786_1_alg».proof.Proof.RefRead
import Idealize.ShloMosaic.Adequacy
import Idealize.ShloMosaic.Init

noncomputable section

namespace Cert.Proof

open Idealize.ShloMosaic Idealize.ShloMosaic.TcCoe Idealize.SL.Sem

/-- The kernel program as printed runs to the end and keeps its arguments. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference runs to the end and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `gcn` of the
    arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.result_eq m ρ c), (h c).2⟩) (Cert.Gcn.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.Gcn.ref_result_eq m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
